-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel

variable [Facts]

def fn {F : FTy → Type} [FloatOps F] (main_arg0 : FVec F S32x64x64x64 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  main_v3
-- ==== Kernel.lean ====
abbrev S32x64x64x64 : Shape := ⟨4, ![32, 64, 64, 64]⟩
abbrev S32x576x3844 : Shape := ⟨3, ![32, 576, 3844]⟩
abbrev S1x32x64x64 : Shape := ⟨4, ![1, 32, 64, 64]⟩
abbrev S1x288x3844 : Shape := ⟨3, ![1, 288, 3844]⟩
abbrev S32x64x64 : Shape := ⟨3, ![32, 64, 64]⟩
abbrev S32x62x62 : Shape := ⟨3, ![32, 62, 62]⟩
abbrev S32x3844 : Shape := ⟨2, ![32, 3844]⟩
abbrev S32x1x3844 : Shape := ⟨3, ![32, 1, 3844]⟩
abbrev S32x9x3844 : Shape := ⟨3, ![32, 9, 3844]⟩
abbrev S288x3844 : Shape := ⟨2, ![288, 3844]⟩

abbrev nBuf : Space → Nat
  | .hbm => 2
  | .vmem => 4
  | .smem => 0
  | _ => 0

abbrev bufTy : (tb : Table) → Fin (tcTables nBuf tb) → BufTy
  | .hbm, ⟨0, _⟩ => ⟨S32x64x64x64, .f32⟩
  | .hbm, ⟨1, _⟩ => ⟨S32x576x3844, .f32⟩
  | .local _ .vmem, ⟨0, _⟩ => ⟨S1x32x64x64, .f32⟩
  | .local _ .vmem, ⟨1, _⟩ => ⟨S1x32x64x64, .f32⟩
  | .local _ .vmem, ⟨2, _⟩ => ⟨S1x288x3844, .f32⟩
  | .local _ .vmem, ⟨3, _⟩ => ⟨S1x288x3844, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x288x3844 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x32x64x64_S1x32x64x64_0_0_0_0 : ∀ a, (![0, 0, 0, 0] : Fin 4 → Nat) a + S1x32x64x64.size a ≤ S1x32x64x64.size a
  h_S1x32x64x64 : 0 < S1x32x64x64.numel
  shapeCasts_S1x32x64x64_S32x64x64 : S1x32x64x64.ShapeCasts S32x64x64
  slices_S32x64x64_o0_0_0_S32x62x62 : S32x64x64.Slices ![0, 0, 0] S32x62x62
  shapeCasts_S32x62x62_S32x3844 : S32x62x62.ShapeCasts S32x3844
  slices_S32x64x64_o0_0_1_S32x62x62 : S32x64x64.Slices ![0, 0, 1] S32x62x62
  slices_S32x64x64_o0_0_2_S32x62x62 : S32x64x64.Slices ![0, 0, 2] S32x62x62
  slices_S32x64x64_o0_1_0_S32x62x62 : S32x64x64.Slices ![0, 1, 0] S32x62x62
  slices_S32x64x64_o0_1_1_S32x62x62 : S32x64x64.Slices ![0, 1, 1] S32x62x62
  slices_S32x64x64_o0_1_2_S32x62x62 : S32x64x64.Slices ![0, 1, 2] S32x62x62
  slices_S32x64x64_o0_2_0_S32x62x62 : S32x64x64.Slices ![0, 2, 0] S32x62x62
  slices_S32x64x64_o0_2_1_S32x62x62 : S32x64x64.Slices ![0, 2, 1] S32x62x62
  slices_S32x64x64_o0_2_2_S32x62x62 : S32x64x64.Slices ![0, 2, 2] S32x62x62
  shapeCasts_S32x3844_S32x1x3844 : S32x3844.ShapeCasts S32x1x3844
  concatenates_S32x1x3844_S32x1x3844_S32x1x3844_S32x1x3844_S32x1x3844_S32x1x3844_S32x1x3844_S32x1x3844_S32x1x3844_S32x9x3844_d1 : Shape.Concatenates [S32x1x3844, S32x1x3844, S32x1x3844, S32x1x3844, S32x1x3844, S32x1x3844, S32x1x3844, S32x1x3844, S32x1x3844] S32x9x3844 1
  shapeCasts_S32x9x3844_S288x3844 : S32x9x3844.ShapeCasts S288x3844
  inb_S1x288x3844_S1x288x3844_0_0_0 : ∀ a, (![0, 0, 0] : Fin 3 → Nat) a + S1x288x3844.size a ≤ S1x288x3844.size a
  h_S1x288x3844 : 0 < S1x288x3844.numel
  shapeCasts_S1x288x3844_S288x3844 : S1x288x3844.ShapeCasts S288x3844
  shapeCasts_S288x3844_S1x288x3844 : S288x3844.ShapeCasts S1x288x3844
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x64.size a ≤ S32x64x64x64.size a
  hwx0_0 : ∀ i : grid0.Coords, EltTy.bits .f32 = 32 ∨ (Rect.block (s := S32x64x64x64) S1x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x288x3844.size a ≤ S32x576x3844.size a
  hwx0_1 : ∀ i : grid0.Coords, EltTy.bits .f32 = 32 ∨ (Rect.block (s := S32x576x3844) S1x288x3844.size (cc0_transform_1 i) (hinb0_1 i)).WholeWords (EltTy.packing .f32)

variable [Facts₀]

abbrev win0_0 : Pipeline.Window sig grid0 :=
  Pipeline.Window.ofSpec (Memref.whole main_arg0) S1x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x288x3844.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x64 : Shape := ⟨4, ![32, 64, 64, 64]⟩
abbrev S32x64x62x62 : Shape := ⟨4, ![32, 64, 62, 62]⟩
abbrev S32x64x1x62x62 : Shape := ⟨5, ![32, 64, 1, 62, 62]⟩
abbrev S32x64x9x62x62 : Shape := ⟨5, ![32, 64, 9, 62, 62]⟩
abbrev S32x576x3844 : Shape := ⟨3, ![32, 576, 3844]⟩

abbrev nBuf : Space → Nat
  | .hbm => 21
  | .vmem => 0
  | .smem => 0
  | _ => 0

abbrev bufTy : (tb : Table) → Fin (tcTables nBuf tb) → BufTy
  | .hbm, ⟨0, _⟩ => ⟨S32x64x64x64, .f32⟩
  | .hbm, ⟨1, _⟩ => ⟨S32x64x62x62, .f32⟩
  | .hbm, ⟨2, _⟩ => ⟨S32x64x62x62, .f32⟩
  | .hbm, ⟨3, _⟩ => ⟨S32x64x62x62, .f32⟩
  | .hbm, ⟨4, _⟩ => ⟨S32x64x62x62, .f32⟩
  | .hbm, ⟨5, _⟩ => ⟨S32x64x62x62, .f32⟩
  | .hbm, ⟨6, _⟩ => ⟨S32x64x62x62, .f32⟩
  | .hbm, ⟨7, _⟩ => ⟨S32x64x62x62, .f32⟩
  | .hbm, ⟨8, _⟩ => ⟨S32x64x62x62, .f32⟩
  | .hbm, ⟨9, _⟩ => ⟨S32x64x62x62, .f32⟩
  | .hbm, ⟨10, _⟩ => ⟨S32x64x1x62x62, .f32⟩
  | .hbm, ⟨11, _⟩ => ⟨S32x64x1x62x62, .f32⟩
  | .hbm, ⟨12, _⟩ => ⟨S32x64x1x62x62, .f32⟩
  | .hbm, ⟨13, _⟩ => ⟨S32x64x1x62x62, .f32⟩
  | .hbm, ⟨14, _⟩ => ⟨S32x64x1x62x62, .f32⟩
  | .hbm, ⟨15, _⟩ => ⟨S32x64x1x62x62, .f32⟩
  | .hbm, ⟨16, _⟩ => ⟨S32x64x1x62x62, .f32⟩
  | .hbm, ⟨17, _⟩ => ⟨S32x64x1x62x62, .f32⟩
  | .hbm, ⟨18, _⟩ => ⟨S32x64x1x62x62, .f32⟩
  | .hbm, ⟨19, _⟩ => ⟨S32x64x9x62x62, .f32⟩
  | .hbm, ⟨20, _⟩ => ⟨S32x576x3844, .f32⟩
  | _, _ => ⟨S32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩

abbrev nD : Nat := 1
abbrev τ : Topo := Topo.v7x

variable {F : FTy → Type} [FloatOps F]

class Facts₀ : Prop where
  slices_S32x64x64x64_S32x64x62x62_0_0_0_0 : S32x64x64x64.Slices ![0, 0, 0, 0] S32x64x62x62
  slices_S32x64x64x64_S32x64x62x62_0_0_0_1 : S32x64x64x64.Slices ![0, 0, 0, 1] S32x64x62x62
  slices_S32x64x64x64_S32x64x62x62_0_0_0_2 : S32x64x64x64.Slices ![0, 0, 0, 2] S32x64x62x62
  slices_S32x64x64x64_S32x64x62x62_0_0_1_0 : S32x64x64x64.Slices ![0, 0, 1, 0] S32x64x62x62
  slices_S32x64x64x64_S32x64x62x62_0_0_1_1 : S32x64x64x64.Slices ![0, 0, 1, 1] S32x64x62x62
  slices_S32x64x64x64_S32x64x62x62_0_0_1_2 : S32x64x64x64.Slices ![0, 0, 1, 2] S32x64x62x62
  slices_S32x64x64x64_S32x64x62x62_0_0_2_0 : S32x64x64x64.Slices ![0, 0, 2, 0] S32x64x62x62
  slices_S32x64x64x64_S32x64x62x62_0_0_2_1 : S32x64x64x64.Slices ![0, 0, 2, 1] S32x64x62x62
  slices_S32x64x64x64_S32x64x62x62_0_0_2_2 : S32x64x64x64.Slices ![0, 0, 2, 2] S32x64x62x62
  bcast_S32x64x62x62_S32x64x1x62x62_0_1_3_4 : S32x64x62x62.BroadcastsInDim S32x64x1x62x62 (![0, 1, 3, 4] : Fin 4 → Fin S32x64x1x62x62.rank)
  concatenates_S32x64x1x62x62_S32x64x1x62x62_S32x64x1x62x62_S32x64x1x62x62_S32x64x1x62x62_S32x64x1x62x62_S32x64x1x62x62_S32x64x1x62x62_S32x64x1x62x62_S32x64x9x62x62_d2 : Shape.Concatenates [S32x64x1x62x62, S32x64x1x62x62, S32x64x1x62x62, S32x64x1x62x62, S32x64x1x62x62, S32x64x1x62x62, S32x64x1x62x62, S32x64x1x62x62, S32x64x1x62x62] S32x64x9x62x62 2
  shapeCasts_S32x64x9x62x62_S32x576x3844 : S32x64x9x62x62.ShapeCasts S32x576x3844

variable [Facts₀]

class Facts : Prop extends Facts₀ where

variable [Facts]
-- ==== Proof.Patches.lean ====
/-
  Patch extraction as ONE function of the image, and the two arrangements of array operations that compute it.

  The image is x : [32, 64, 64, 64] (batch, channel, row, column). Its 3×3 patch matrix is P : [32, 576, 3844]:
  for a channel c, a window offset (di, dj) with 0 ≤ di, dj < 3 and an output position (ho, wo) with 0 ≤ ho, wo < 62,
  row 9·c + 3·di + dj of batch b holds at column 62·ho + wo the image entry x[b, c, ho + di, wo + dj]. Reading the
  row r and the column l back into their parts,

      P[b, r, l] = x[b, r / 9, (r % 9) / 3 + l / 62, (r % 9) % 3 + l % 62]                       (patches, src).

  No arithmetic is done on the entries: P is a re-indexing of x, so everything here holds for entries of any type.

  Two arrangements compute P, and each is read at an index below.
  * Block by block (blockPatches): from one batch entry's block of 32 channels, [1, 32, 64, 64], each of the nine
    shifted 62×62 windows is flattened to rows of length 3844 = 62·62, the nine rows are stacked behind the channel
    (window 3·di + dj in place 3·di + dj), and channel and window are merged into one axis of 288 = 32·9 rows. Entry
    (r, l) of the block's result is the block's entry (r / 9, (r % 9) / 3 + l / 62, (r % 9) % 3 + l % 62)
    (blockPatches_apply): the same formula, one block at a time.
  * Over the whole image (wholePatches): the nine shifted windows [32, 64, 62, 62] are stacked on a new axis behind
    the channel axis, [32, 64, 9, 62, 62], and then channel and window merge into 576 = 64·9 rows and the two
    position axes into 3844 columns. The row-major position of (b, c, n, ho, wo) in the stacked array is that of
    (b, 9·c + n, 62·ho + wo) in the matrix, which is the formula again (wholePatches_eq).
-/
import Idealize.ShloMosaic.PureOps
import Idealize.ShloMosaic.Lib.ValueIdx
import Idealize.ShloMosaic.Lib.Pipeline.Value

noncomputable section

namespace Cert.Patches

open Idealize.ShloMosaic Idealize.ShloMosaic.ValueIdx

variable {α : Type}

/-! ## The shapes -/

/-- The image: batch, channel, row, column. -/
abbrev Img : Shape := ⟨4, ![32, 64, 64, 64]⟩
/-- The patch matrix: batch, 9·channel + window, 62·row + column of the output position. -/
abbrev Mat : Shape := ⟨3, ![32, 576, 3844]⟩
/-- One batch entry's block of 32 channels, and the same without its unit axis. -/
abbrev Blk : Shape := ⟨4, ![1, 32, 64, 64]⟩
abbrev Blk3 : Shape := ⟨3, ![32, 64, 64]⟩
/-- One shifted window of a block; flattened; flattened with a unit axis to stack along. -/
abbrev Win3 : Shape := ⟨3, ![32, 62, 62]⟩
abbrev Row2 : Shape := ⟨2, ![32, 3844]⟩
abbrev Row3 : Shape := ⟨3, ![32, 1, 3844]⟩
/-- The nine flattened windows of a block stacked; channel and window merged; with the block's unit axis. -/
abbrev Stack3 : Shape := ⟨3, ![32, 9, 3844]⟩
abbrev MatBlk2 : Shape := ⟨2, ![288, 3844]⟩
abbrev MatBlk : Shape := ⟨3, ![1, 288, 3844]⟩
/-- One shifted window of the whole image; with a unit axis to stack along; the nine stacked. -/
abbrev Win4 : Shape := ⟨4, ![32, 64, 62, 62]⟩
abbrev Win5 : Shape := ⟨5, ![32, 64, 1, 62, 62]⟩
abbrev Stack5 : Shape := ⟨5, ![32, 64, 9, 62, 62]⟩

/-! ## The patch matrix -/

/-- The image position that entry (b, r, l) of the patch matrix copies: channel r / 9, window offset
    ((r % 9) / 3, (r % 9) % 3), output position (l / 62, l % 62). -/
def src (i : Mat.Idx) : Img.Idx := fun a => match a with
  | ⟨0, _⟩ => ⟨(i 0).val, (i 0).isLt⟩
  | ⟨1, _⟩ => ⟨(i 1).val / 9, by have h : (i 1).val < 576 := (i 1).isLt; show (i 1).val / 9 < 64; omega⟩
  | ⟨2, _⟩ => ⟨(i 1).val % 9 / 3 + (i 2).val / 62, by
      have h : (i 2).val < 3844 := (i 2).isLt; show (i 1).val % 9 / 3 + (i 2).val / 62 < 64; omega⟩
  | ⟨3, _⟩ => ⟨(i 1).val % 9 % 3 + (i 2).val % 62, by show (i 1).val % 9 % 3 + (i 2).val % 62 < 64; omega⟩

/-- The 3×3 patch matrix of an image. -/
def patches (x : Img.Idx → α) : Mat.Idx → α := fun i => x (src i)

/-! ## Block by block -/

/-- The same formula inside one block of 32 channels: entry (0, r, l) of the block's 288 rows copies the block's
    entry (0, r / 9, (r % 9) / 3 + l / 62, (r % 9) % 3 + l % 62). -/
def srcBlk (j : MatBlk.Idx) : Blk.Idx := fun a => match a with
  | ⟨0, _⟩ => ⟨0, Nat.one_pos⟩
  | ⟨1, _⟩ => ⟨(j 1).val / 9, by have h : (j 1).val < 288 := (j 1).isLt; show (j 1).val / 9 < 32; omega⟩
  | ⟨2, _⟩ => ⟨(j 1).val % 9 / 3 + (j 2).val / 62, by
      have h : (j 2).val < 3844 := (j 2).isLt; show (j 1).val % 9 / 3 + (j 2).val / 62 < 64; omega⟩
  | ⟨3, _⟩ => ⟨(j 1).val % 9 % 3 + (j 2).val % 62, by show (j 1).val % 9 % 3 + (j 2).val % 62 < 64; omega⟩

/-- Window n of a block starts at row n / 3 and column n % 3, and fits. -/
theorem slices3 : ∀ n : Fin 9, Blk3.Slices ![0, n.val / 3, n.val % 3] Win3 := by decide

/-- Window n of a block of 32 channels, each channel's 62×62 entries flattened to a row of 3844. -/
def slab3 (v : Blk3.Idx → α) (n : Fin 9) : Row3.Idx → α :=
  shapeCast Row3 (shapeCast Row2 (extractStridedSlice Win3 ![0, n.val / 3, n.val % 3] v (slices3 n)) (by decide)) (by decide)

/-- Entry l of channel c's row of window n is the block's entry (c, n / 3 + l / 62, n % 3 + l % 62). -/
theorem slab3_apply (v : Blk3.Idx → α) (n : Fin 9) (q : Row3.Idx) (k : Blk3.Idx)
    (h0 : (k 0).val = (q 0).val) (h1 : (k 1).val = n.val / 3 + (q 2).val / 62)
    (h2 : (k 2).val = n.val % 3 + (q 2).val % 62) : slab3 v n q = v k := by
  have hq0 : (q 0).val < 32 := (q 0).isLt
  have hq1 : (q 1).val < 1 := (q 1).isLt
  have hq2 : (q 2).val < 3844 := (q 2).isLt
  unfold slab3
  refine (shapeCast_apply _ _ q (ix2 (⟨(q 0).val, hq0⟩ : Fin 32) (⟨(q 2).val, hq2⟩ : Fin 3844)) ?_).trans ?_
  · rw [Shape.rowMajor_val_two, Shape.rowMajor_val_three]
    show (q 0).val * 3844 + (q 2).val = ((q 0).val * 1 + (q 1).val) * 3844 + (q 2).val
    omega
  refine (shapeCast_apply _ _ _ (ix3 (⟨(q 0).val, hq0⟩ : Fin 32) (⟨(q 2).val / 62, by omega⟩ : Fin 62)
    (⟨(q 2).val % 62, by omega⟩ : Fin 62)) ?_).trans ?_
  · rw [Shape.rowMajor_val_three, Shape.rowMajor_val_two]
    show ((q 0).val * 62 + (q 2).val / 62) * 62 + (q 2).val % 62 = (q 0).val * 3844 + (q 2).val
    omega
  exact extractStridedSlice_apply _ v _ _ k (fun a => match a with
    | ⟨0, _⟩ => by show (k 0).val = 0 + (q 0).val; omega
    | ⟨1, _⟩ => by show (k 1).val = n.val / 3 + (q 2).val / 62; exact h1
    | ⟨2, _⟩ => by show (k 2).val = n.val % 3 + (q 2).val % 62; exact h2)

/-- Nine rows of one place each make the nine places of the stack. -/
theorem stack3_cat (f : Fin 9 → (Row3.Idx → α)) :
    Shape.Concatenates ((List.ofFn fun n : Fin 9 => (⟨Row3, f n⟩ : (s : Shape) × (s.Idx → α))).map (·.1)) Stack3 1 := by
  show Shape.Concatenates [Row3, Row3, Row3, Row3, Row3, Row3, Row3, Row3, Row3] Stack3 1
  decide

/-- The patch matrix of one block: the nine flattened windows stacked behind the channel, channel and window merged. -/
def blockPatches (v0 : Blk.Idx → α) : MatBlk.Idx → α :=
  shapeCast MatBlk
    (shapeCast MatBlk2
      (concatenate Stack3 1
        (List.ofFn fun n : Fin 9 => (⟨Row3, slab3 (shapeCast Blk3 v0 (by decide)) n⟩ : (s : Shape) × (s.Idx → α)))
        (stack3_cat _))
      (by decide))
    (by decide)

/-- Entry (0, r, l) of a block's patch matrix is the block's entry at srcBlk. -/
theorem blockPatches_apply (v0 : Blk.Idx → α) (j : MatBlk.Idx) : blockPatches v0 j = v0 (srcBlk j) := by
  have hj0 : (j 0).val < 1 := (j 0).isLt
  have hj1 : (j 1).val < 288 := (j 1).isLt
  have hj2 : (j 2).val < 3844 := (j 2).isLt
  unfold blockPatches
  -- the block's unit axis
  refine (shapeCast_apply _ _ j (ix2 (⟨(j 1).val, hj1⟩ : Fin 288) (⟨(j 2).val, hj2⟩ : Fin 3844)) ?_).trans ?_
  · rw [Shape.rowMajor_val_two, Shape.rowMajor_val_three]
    show (j 1).val * 3844 + (j 2).val = ((j 0).val * 288 + (j 1).val) * 3844 + (j 2).val
    omega
  -- row r is place r % 9 of channel r / 9
  refine (shapeCast_apply _ _ _ (ix3 (⟨(j 1).val / 9, by omega⟩ : Fin 32) (⟨(j 1).val % 9, by omega⟩ : Fin 9)
    (⟨(j 2).val, hj2⟩ : Fin 3844)) ?_).trans ?_
  · rw [Shape.rowMajor_val_three, Shape.rowMajor_val_two]
    show ((j 1).val / 9 * 9 + (j 1).val % 9) * 3844 + (j 2).val = (j 1).val * 3844 + (j 2).val
    omega
  -- place n of the stack is window n
  refine (concatenate_ofFn_unit_apply (t := Stack3) (s₁ := Row3) (1 : Fin 3) _ _ rfl rfl
    (ix3 (⟨(j 1).val / 9, by omega⟩ : Fin 32) (⟨(j 1).val % 9, by omega⟩ : Fin 9) (⟨(j 2).val, hj2⟩ : Fin 3844))
    (⟨(j 1).val % 9, by omega⟩ : Fin 9) rfl
    (ix3 (⟨(j 1).val / 9, by omega⟩ : Fin 32) (0 : Fin 1) (⟨(j 2).val, hj2⟩ : Fin 3844)) ?_).trans ?_
  · intro b hb
    match b with
    | ⟨0, _⟩ => rfl
    | ⟨1, _⟩ => exact absurd rfl hb
    | ⟨2, _⟩ => rfl
  -- the window's row, then the block without its unit axis
  refine (slab3_apply _ _ _ (ix3 (⟨(j 1).val / 9, by omega⟩ : Fin 32)
    (⟨(j 1).val % 9 / 3 + (j 2).val / 62, by omega⟩ : Fin 64) (⟨(j 1).val % 9 % 3 + (j 2).val % 62, by omega⟩ : Fin 64))
    rfl rfl rfl).trans ?_
  refine shapeCast_apply v0 _ _ (srcBlk j) ?_
  rw [Shape.rowMajor_val_four, Shape.rowMajor_val_three]
  show ((0 * 32 + (j 1).val / 9) * 64 + ((j 1).val % 9 / 3 + (j 2).val / 62)) * 64 + ((j 1).val % 9 % 3 + (j 2).val % 62)
    = ((j 1).val / 9 * 64 + ((j 1).val % 9 / 3 + (j 2).val / 62)) * 64 + ((j 1).val % 9 % 3 + (j 2).val % 62)
  omega

/-! ## Over the whole image -/

/-- Window n of the image starts at row n / 3 and column n % 3, and fits. -/
theorem slices4 : ∀ n : Fin 9, Img.Slices ![0, 0, n.val / 3, n.val % 3] Win4 := by decide

/-- A window gets its unit axis behind the channel axis. -/
theorem bcast45 : Win4.BroadcastsInDim Win5 (![0, 1, 3, 4] : Fin 4 → Fin Win5.rank) := by decide

/-- Window n of the whole image, with a unit axis to stack along. -/
def slab5 (x : Img.Idx → α) (n : Fin 9) : Win5.Idx → α :=
  broadcastInDim (s := Win4) Win5 ![0, 1, 3, 4] bcast45 (extractStridedSlice Win4 ![0, 0, n.val / 3, n.val % 3] x (slices4 n))

/-- Entry (b, c, 0, ho, wo) of window n is the image's entry (b, c, n / 3 + ho, n % 3 + wo). -/
theorem slab5_apply (x : Img.Idx → α) (n : Fin 9) (q : Win5.Idx) (k : Img.Idx)
    (h0 : (k 0).val = (q 0).val) (h1 : (k 1).val = (q 1).val) (h2 : (k 2).val = n.val / 3 + (q 3).val)
    (h3 : (k 3).val = n.val % 3 + (q 4).val) : slab5 x n q = x k := by
  have hq0 : (q 0).val < 32 := (q 0).isLt
  have hq1 : (q 1).val < 64 := (q 1).isLt
  have hq3 : (q 3).val < 62 := (q 3).isLt
  have hq4 : (q 4).val < 62 := (q 4).isLt
  unfold slab5
  refine (broadcastInDim_apply _ bcast45 _ q (ix4 (⟨(q 0).val, hq0⟩ : Fin 32) (⟨(q 1).val, hq1⟩ : Fin 64)
    (⟨(q 3).val, hq3⟩ : Fin 62) (⟨(q 4).val, hq4⟩ : Fin 62)) (fun a => match a with
      | ⟨0, _⟩ => by show (q 0).val = if (32 : Nat) = 1 then 0 else (q 0).val; rw [if_neg (by decide)]
      | ⟨1, _⟩ => by show (q 1).val = if (64 : Nat) = 1 then 0 else (q 1).val; rw [if_neg (by decide)]
      | ⟨2, _⟩ => by show (q 3).val = if (62 : Nat) = 1 then 0 else (q 3).val; rw [if_neg (by decide)]
      | ⟨3, _⟩ => by show (q 4).val = if (62 : Nat) = 1 then 0 else (q 4).val; rw [if_neg (by decide)])).trans ?_
  exact extractStridedSlice_apply _ x _ _ k (fun a => match a with
    | ⟨0, _⟩ => by show (k 0).val = 0 + (q 0).val; omega
    | ⟨1, _⟩ => by show (k 1).val = 0 + (q 1).val; omega
    | ⟨2, _⟩ => by show (k 2).val = n.val / 3 + (q 3).val; exact h2
    | ⟨3, _⟩ => by show (k 3).val = n.val % 3 + (q 4).val; exact h3)

/-- Nine windows of one place each make the nine places of the stack. -/
theorem stack5_cat (f : Fin 9 → (Win5.Idx → α)) :
    Shape.Concatenates ((List.ofFn fun n : Fin 9 => (⟨Win5, f n⟩ : (s : Shape) × (s.Idx → α))).map (·.1)) Stack5 2 := by
  show Shape.Concatenates [Win5, Win5, Win5, Win5, Win5, Win5, Win5, Win5, Win5] Stack5 2
  decide

/-- The patch matrix computed over the whole image: the nine windows stacked behind the channel axis, then channel and
    window merged and the two position axes merged. -/
def wholePatches (x : Img.Idx → α) : Mat.Idx → α :=
  shapeCast Mat
    (concatenate Stack5 2 (List.ofFn fun n : Fin 9 => (⟨Win5, slab5 x n⟩ : (s : Shape) × (s.Idx → α))) (stack5_cat _))
    (by decide)

/-- It is the patch matrix. -/
theorem wholePatches_eq (x : Img.Idx → α) : wholePatches x = patches x := by
  funext i
  have hi0 : (i 0).val < 32 := (i 0).isLt
  have hi1 : (i 1).val < 576 := (i 1).isLt
  have hi2 : (i 2).val < 3844 := (i 2).isLt
  unfold wholePatches patches
  -- (b, r, l) sits where (b, r / 9, r % 9, l / 62, l % 62) sits
  refine (shapeCast_apply _ _ i (ix5 (⟨(i 0).val, hi0⟩ : Fin 32) (⟨(i 1).val / 9, by omega⟩ : Fin 64)
    (⟨(i 1).val % 9, by omega⟩ : Fin 9) (⟨(i 2).val / 62, by omega⟩ : Fin 62) (⟨(i 2).val % 62, by omega⟩ : Fin 62)) ?_).trans ?_
  · rw [Shape.rowMajor_val_five, Shape.rowMajor_val_three]
    show ((((i 0).val * 64 + (i 1).val / 9) * 9 + (i 1).val % 9) * 62 + (i 2).val / 62) * 62 + (i 2).val % 62
      = ((i 0).val * 576 + (i 1).val) * 3844 + (i 2).val
    omega
  -- place n of the stack is window n
  refine (concatenate_ofFn_unit_apply (t := Stack5) (s₁ := Win5) (2 : Fin 5) _ _ rfl rfl
    (ix5 (⟨(i 0).val, hi0⟩ : Fin 32) (⟨(i 1).val / 9, by omega⟩ : Fin 64)
      (⟨(i 1).val % 9, by omega⟩ : Fin 9) (⟨(i 2).val / 62, by omega⟩ : Fin 62) (⟨(i 2).val % 62, by omega⟩ : Fin 62))
    (⟨(i 1).val % 9, by omega⟩ : Fin 9) rfl
    (ix5 (⟨(i 0).val, hi0⟩ : Fin 32) (⟨(i 1).val / 9, by omega⟩ : Fin 64) (0 : Fin 1)
      (⟨(i 2).val / 62, by omega⟩ : Fin 62) (⟨(i 2).val % 62, by omega⟩ : Fin 62)) ?_).trans ?_
  · intro b hb
    match b with
    | ⟨0, _⟩ => rfl
    | ⟨1, _⟩ => rfl
    | ⟨2, _⟩ => exact absurd rfl hb
    | ⟨3, _⟩ => rfl
    | ⟨4, _⟩ => rfl
  exact slab5_apply x _ _ (src i) rfl rfl rfl rfl

end Cert.Patches

end
-- ==== Proof.PatchRun.lean ====
/-
  What the kernel's result array holds after the run: the patch matrix of the argument (Cert.Patches.patches).

  The grid has 64 points, (batch b, channel half cb) with 0 ≤ b < 32 and 0 ≤ cb < 2. At a point the kernel is handed
  block (b, cb, 0, 0) of the image, of shape [1, 32, 64, 64] — the 32 channels 32·cb … 32·cb + 31 of batch entry b —
  and writes back block (b, cb, 0) of the result, of shape [1, 288, 3844] — rows 288·cb … 288·cb + 287 of batch entry b.
  Its one stored value is the block's own patch matrix (blockPatches, by unfolding). Row 288·cb + r of the matrix
  belongs to channel (288·cb + r) / 9 = 32·cb + r / 9 and to window (288·cb + r) % 9 = r % 9, because 288 = 32·9:
  a block of 32 channels fills exactly 288 whole rows, so the block's formula is the matrix's formula restricted
  to the block (flushed_eq). The 64 blocks tile the result (row r of batch b lies in block (b, r / 288, 0)), so the
  whole array ends as the patch matrix (final, run).
-/
import proofs.«100223_j9363028706226_2_alg».proof.Proof.Gen.KernelIdeal.Value
import proofs.«100223_j9363028706226_2_alg».proof.Proof.Patches
import Idealize.ShloMosaic.Lib.Pipeline.Value

noncomputable section

namespace Cert.KernelIdeal.PatchRun

open Cert.KernelIdeal Cert.KernelIdeal.Gen Idealize.ShloMosaic Idealize.ShloMosaic.TcCoe Idealize.SL.Sem
open Idealize.ShloMosaic.Pipeline (Dat)
open Cert.Patches

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's one stored value is the patch matrix of the block it loaded: the same operations, spelt with the
    nine windows as a family. -/
theorem pay_eq (v0 : Vec F S1x32x64x64 .f32) : k0_pay1 v0 = blockPatches v0 := rfl

/-- The two index maps, decided over the 64 points: the image block and the result block move together along batch
    and channel half, and neither moves along its other axes. -/
theorem idx_facts : ∀ t : Fin cfg0.N, win0_0.index t (0 : Fin 4) = win0_1.index t (0 : Fin 3)
    ∧ win0_0.index t (1 : Fin 4) = win0_1.index t (1 : Fin 3)
    ∧ win0_0.index t (2 : Fin 4) = 0
    ∧ win0_0.index t (3 : Fin 4) = 0
    ∧ win0_1.index t (2 : Fin 3) = 0 :=
  (by decide +kernel : ∀ t : Fin grid0.N, _)

/-- Every (batch, channel half) is some point's result block. -/
theorem idx_onto : ∀ (q0 : Fin 32) (q1 : Fin 2), ∃ t : Fin cfg0.N, win0_1.index t = ![q0.val, q1.val, 0] :=
  (by decide +kernel : ∀ (q0 : Fin 32) (q1 : Fin 2), ∃ t : Fin grid0.N, win0_1.index t = ![q0.val, q1.val, 0])

/-- WHAT POINT t WRITES BACK is block t of the argument's patch matrix. -/
theorem flushed_eq (c : Dev nD) (t : Fin cfg0.N) :
    (dats m 0 c).flushed 1 t = ((cfg0.win 1).blk t).view.read (Elt F) (patches (V m c main_arg0)) := by
  show (cfg0.win 1).cut (grid0.coords t) ((dats m 0 c).after 1 t) = _
  rw [after0_1]
  unfold out0_1
  rw [View.canon_unit_zero hz3]
  simp only [View.ld_unit_zero (S := S1x32x64x64) hz4]
  rw [pay_eq]
  obtain ⟨e0, e1, e2, e3, e4⟩ := idx_facts t
  funext j
  show blockPatches (iblk m c 0 t) j = patches (V m c main_arg0) (((cfg0.win 1).blk t).view.emb j)
  refine (blockPatches_apply (iblk m c 0 t) j).trans ?_
  show V m c main_arg0 (((cfg0.win 0).blk t).view.emb (srcBlk j)) = V m c main_arg0 (src (((cfg0.win 1).blk t).view.emb j))
  have hj0 : (j 0).val < 1 := (j 0).isLt
  have hj1 : (j 1).val < 288 := (j 1).isLt
  have hj2 : (j 2).val < 3844 := (j 2).isLt
  have h : ((cfg0.win 0).blk t).view.emb (srcBlk j) = src (((cfg0.win 1).blk t).view.emb j) := by
    funext a; apply Fin.ext
    match a with
    | ⟨0, _⟩ =>
      show win0_0.index t (0 : Fin 4) * 1 + 1 * 0 = win0_1.index t (0 : Fin 3) * 1 + 1 * (j 0).val
      omega
    | ⟨1, _⟩ =>
      show win0_0.index t (1 : Fin 4) * 32 + 1 * ((j 1).val / 9) = (win0_1.index t (1 : Fin 3) * 288 + 1 * (j 1).val) / 9
      omega
    | ⟨2, _⟩ =>
      show win0_0.index t (2 : Fin 4) * 64 + 1 * ((j 1).val % 9 / 3 + (j 2).val / 62)
        = (win0_1.index t (1 : Fin 3) * 288 + 1 * (j 1).val) % 9 / 3 + (win0_1.index t (2 : Fin 3) * 3844 + 1 * (j 2).val) / 62
      omega
    | ⟨3, _⟩ =>
      show win0_0.index t (3 : Fin 4) * 64 + 1 * ((j 1).val % 9 % 3 + (j 2).val % 62)
        = (win0_1.index t (1 : Fin 3) * 288 + 1 * (j 1).val) % 9 % 3 + (win0_1.index t (2 : Fin 3) * 3844 + 1 * (j 2).val) % 62
      omega
  rw [h]

/-- An index of the result is in point t's block iff each coordinate is in the block's range on its axis. -/
theorem mem_blk (t : Fin cfg0.N) (i : S32x576x3844.Idx) :
    i ∈ ((cfg0.win 1).blk t).view.set ↔ ∀ a : Fin 3, win0_1.index t a * S1x288x3844.size a ≤ (i a).val
      ∧ (i a).val < win0_1.index t a * S1x288x3844.size a + S1x288x3844.size a := by
  show i ∈ ((View.whole main_v0).slice (win0_1.rect t)).set ↔ _
  rw [View.set_slice_whole, Rect.mem_set_unit]
  exact Iff.rfl

/-- The blocks tile the result: entry (b, r, l) lies in the block of point (b, r / 288). -/
theorem covered (i : S32x576x3844.Idx) :
    ∃ t : Fin cfg0.N, (cfg0.win 1).flush t = true ∧ i ∈ ((cfg0.win 1).blk t).view.set := by
  have hi0 : (i 0).val < 32 := (i 0).isLt
  have hi1 : (i 1).val < 576 := (i 1).isLt
  have hi2 : (i 2).val < 3844 := (i 2).isLt
  obtain ⟨t, ht⟩ := idx_onto ⟨(i 0).val, hi0⟩ ⟨(i 1).val / 288, by omega⟩
  have q0 : win0_1.index t (0 : Fin 3) = (i 0).val := congrFun ht 0
  have q1 : win0_1.index t (1 : Fin 3) = (i 1).val / 288 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 288 ≤ (i 1).val ∧ (i 1).val < win0_1.index t (1 : Fin 3) * 288 + 288
    omega
  | ⟨2, _⟩ =>
    show win0_1.index t (2 : Fin 3) * 3844 ≤ (i 2).val ∧ (i 2).val < win0_1.index t (2 : Fin 3) * 3844 + 3844
    omega

/-- THE RESULT ARRAY after the run is the patch matrix of the argument as launched. -/
theorem final (c : Dev nD) : (dats m 0 c).arrAt 1 cfg0.N = patches (m ((c : Thread nD τ).loc main_arg0)) :=
  (dats m 0 c).arrAt_eq_of_cover 1 (patches (V m c main_arg0)) (fun t _ => flushed_eq m c t) covered

/-- The run, read: every weakly fair execution ends with the result at the argument's patch matrix and the argument
    unchanged. -/
theorem run : θ_run defs (onTc (τ := τ) (main (F := F))) ⟨m, fun _ => 0, ρ⟩ fun r => ∀ c : Dev nD,
      r.2.mem ((c : Thread nD τ).loc main_v0) = patches (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.PatchRun

end
-- ==== Proof.lean ====
/-
  The kernel and its reference both compute the 3×3 patch matrix of the image x : [32, 64, 64, 64]:

      P[b, r, l] = x[b, r / 9, (r % 9) / 3 + l / 62, (r % 9) % 3 + l % 62]        (P : [32, 576, 3844]; Proof/Patches.lean).

  No arithmetic is done on the entries — both programs only move them — so the two results are equal entry by entry
  for every input, finite or not, and the precondition is never opened.

  * The kernel works on 64 blocks (batch entry × half of the channels). On a block it takes the nine shifted 62×62
    windows, flattens each, stacks the nine behind the channel and merges channel and window; since a block of 32
    channels fills 288 = 32·9 whole rows of the matrix, the 64 block results tile P (Proof/PatchRun.lean).
  * The reference takes the nine shifted windows of the whole image, stacks them on a new axis behind the channel axis
    and reshapes [32, 64, 9, 62, 62] to [32, 576, 3844]: row-major order sends (b, c, n, ho, wo) to (b, 9·c + n, 62·ho + wo)
    (Cert.Patches.wholePatches_eq).

  Both programs terminate without a fault and leave the image unchanged (the three frames); the idealized kernel is the
  kernel's own text read over the extended reals, with nothing rewritten, so there is nothing to preserve.
-/
import proofs.«100223_j9363028706226_2_alg».proof.Defs
import proofs.«100223_j9363028706226_2_alg».proof.Proof.Gen.Kernel
import proofs.«100223_j9363028706226_2_alg».proof.Proof.Gen.Kernel.Skeleton
import proofs.«100223_j9363028706226_2_alg».proof.Proof.Gen.Kernel.Launch
import proofs.«100223_j9363028706226_2_alg».proof.Proof.Gen.Kernel.Points
import proofs.«100223_j9363028706226_2_alg».proof.Proof.Gen.Kernel.Frame
import proofs.«100223_j9363028706226_2_alg».proof.Proof.Gen.KernelIdeal
import proofs.«100223_j9363028706226_2_alg».proof.Proof.Gen.KernelIdeal.Skeleton
import proofs.«100223_j9363028706226_2_alg».proof.Proof.Gen.KernelIdeal.Launch
import proofs.«100223_j9363028706226_2_alg».proof.Proof.Gen.KernelIdeal.Points
import proofs.«100223_j9363028706226_2_alg».proof.Proof.Gen.KernelIdeal.Frame
import proofs.«100223_j9363028706226_2_alg».proof.Proof.Gen.ReferenceIdeal
import proofs.«100223_j9363028706226_2_alg».proof.Proof.Gen.Pre_finite_inputs
import proofs.«100223_j9363028706226_2_alg».proof.Proof.Gen.KernelIdeal.Value
import proofs.«100223_j9363028706226_2_alg».proof.Proof.Gen.ReferenceIdeal.Run
import proofs.«100223_j9363028706226_2_alg».proof.Proof.Patches
import proofs.«100223_j9363028706226_2_alg».proof.Proof.PatchRun
import Idealize.ShloMosaic.Adequacy
import Idealize.ShloMosaic.Init

noncomputable section

namespace Cert.Proof

open Idealize.ShloMosaic Idealize.ShloMosaic.TcCoe Idealize.SL.Sem

/-- The kernel as printed runs to the end and leaves the image as it was. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From images that agree, the kernel's result array and the reference's both end as the image's patch matrix:
    the kernel's block by block (PatchRun.run), the reference's by its nine whole-image windows stacked and
    reshaped (wholePatches_eq). -/
theorem algebraic : Cert.algebraic_KernelIdeal_ReferenceIdeal := by
  intro m ρ m' ρ' _ hagree
  refine ⟨fun c => Cert.Patches.patches
      (m ((c.tc : Thread Cert.KernelIdeal.nD Cert.KernelIdeal.τ).loc Cert.KernelIdeal.main_arg0)),
    Cert.KernelIdeal.PatchRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Patches.wholePatches_eq
    (m ((c.tc : Thread Cert.KernelIdeal.nD Cert.KernelIdeal.τ).loc Cert.KernelIdeal.main_arg0))

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
